-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x56x56x256 : Shape := ⟨4, ![8, 56, 56, 256]⟩
abbrev S256x256 : Shape := ⟨2, ![256, 256]⟩
abbrev S_ : Shape := ⟨0, ![]⟩

class Facts : Prop where
  bcast_S_S8x56x56x256 : S_.BroadcastsInDim S8x56x56x256 (![] : Fin 0 → Fin S8x56x56x256.rank)
  reducesTo_S8x56x56x256_S_d0_1_2_3 : S8x56x56x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S8x56x56x256 .f32) (main_arg1 : FVec F S256x256 .f32) : IVec S_ 1 :=
  let main_v0 : FVec F S8x56x56x256 .f32 := Host.absf main_arg0
  let main_cst : FVec F S_ .f32 := constant S_ .f32 0x7F800000#32
  let main_v1 : FVec F S8x56x56x256 .f32 := broadcastInDim S8x56x56x256 ![] bcast_S_S8x56x56x256 main_cst
  let main_v2 : IVec S8x56x56x256 1 := cmpf .olt main_v0 main_v1
  let main_c : IVec S_ 1 := constantI S_ 1 1#1
  let main_v3 : IVec S_ 1 := (fun x v => Host.reduce IntOp.andi x v reducesTo_S8x56x56x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S8x56x56x256 : Shape := ⟨4, ![8, 56, 56, 256]⟩
abbrev S256x256 : Shape := ⟨2, ![256, 256]⟩
abbrev S8x3136x256 : Shape := ⟨3, ![8, 3136, 256]⟩
abbrev S_ : Shape := ⟨0, ![]⟩
abbrev S8x3328x256 : Shape := ⟨3, ![8, 3328, 256]⟩
abbrev S1x3328x256 : Shape := ⟨3, ![1, 3328, 256]⟩
abbrev S3328x256 : Shape := ⟨2, ![3328, 256]⟩
abbrev S3328 : Shape := ⟨1, ![3328]⟩
abbrev S3328x1 : Shape := ⟨2, ![3328, 1]⟩

abbrev nBuf : Space → Nat
  | .hbm => 9
  | .vmem => 7
  | .smem => 0
  | _ => 0

abbrev bufTy : (tb : Table) → Fin (tcTables nBuf tb) → BufTy
  | .hbm, ⟨0, _⟩ => ⟨S8x56x56x256, .f32⟩
  | .hbm, ⟨1, _⟩ => ⟨S256x256, .f32⟩
  | .hbm, ⟨2, _⟩ => ⟨S8x3136x256, .f32⟩
  | .hbm, ⟨3, _⟩ => ⟨S_, .i32⟩
  | .hbm, ⟨4, _⟩ => ⟨S_, .f32⟩
  | .hbm, ⟨5, _⟩ => ⟨S8x3328x256, .f32⟩
  | .hbm, ⟨6, _⟩ => ⟨S8x3328x256, .f32⟩
  | .hbm, ⟨7, _⟩ => ⟨S8x3136x256, .f32⟩
  | .hbm, ⟨8, _⟩ => ⟨S8x56x56x256, .f32⟩
  | .local _ .vmem, ⟨0, _⟩ => ⟨S1x3328x256, .f32⟩
  | .local _ .vmem, ⟨1, _⟩ => ⟨S1x3328x256, .f32⟩
  | .local _ .vmem, ⟨2, _⟩ => ⟨S256x256, .f32⟩
  | .local _ .vmem, ⟨3, _⟩ => ⟨S1x3328x256, .f32⟩
  | .local _ .vmem, ⟨4, _⟩ => ⟨S1x3328x256, .f32⟩
  | .local _ .vmem, ⟨5, _⟩ => ⟨S3328x256, .bf16⟩
  | .local _ .vmem, ⟨6, _⟩ => ⟨S3328x256, .bf16⟩
  | _, _ => ⟨S8x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 13], ![false, false]⟩

def k0_mult1 (i : grid0.Coords) : BitVec 32 :=
  let arg1 : BitVec 32 := BitVec.ofNat 32 (i 1).val
  let c256_i32 : BitVec 32 := 256#32
  let v4 : BitVec 32 := Scalar.muli arg1 c256_i32
  v4
def k0_off1 (i : grid0.Coords) : Fin 2 → Nat :=
  let arg1 : BitVec 32 := BitVec.ofNat 32 (i 1).val
  let c256_i32 : BitVec 32 := 256#32
  let v4 : BitVec 32 := Scalar.muli arg1 c256_i32
  let v5 : BitVec 32 := v4
  let v6 : Index := Scalar.indexCast v5
  let c0_2 : Index := 0#32
  ![v6.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3328x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3328x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x56x56x256_S8x3136x256 : S8x56x56x256.ShapeCasts S8x3136x256
  pads_S8x3136x256_S8x3328x256_000_01920_000 : S8x3136x256.Pads (![0, 0, 0] : Fin 3 → Nat) ![0, 192, 0] ![0, 0, 0] S8x3328x256
  h_S_ : 0 < S_.numel
  inb_S1x3328x256_S1x3328x256_0_0_0 : ∀ a, (![0, 0, 0] : Fin 3 → Nat) a + S1x3328x256.size a ≤ S1x3328x256.size a
  h_S1x3328x256 : 0 < S1x3328x256.numel
  shapeCasts_S1x3328x256_S3328x256 : S1x3328x256.ShapeCasts S3328x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  reduces_S3328x256_S3328 : S3328x256.Reduces [1] S3328
  shapeCasts_S3328_S3328x1 : S3328.ShapeCasts S3328x1
  broadcasts_S3328x1_S3328x256 : S3328x1.Broadcasts S3328x256
  inb_S3328x256_S3328x256_0_0 : ∀ a, (![0, 0] : Fin 2 → Nat) a + S3328x256.size a ≤ S3328x256.size a
  h_S3328x256 : 0 < S3328x256.numel
  shapeCasts_S3328x256_S3328x256 : S3328x256.ShapeCasts S3328x256
  packedbf16_S3328x256_S3328x256_0_0 : (Rect.unit (s := S3328x256) ![0, 0] S3328x256.size inb_S3328x256_S3328x256_0_0).PackedRows (EltTy.packing .bf16)
  shapeCasts_S3328x256_S1x3328x256 : S3328x256.ShapeCasts S1x3328x256
  slices_S8x3328x256_S8x3136x256_0_0_0 : S8x3328x256.Slices ![0, 0, 0] S8x3136x256
  shapeCasts_S8x3136x256_S8x56x56x256 : S8x3136x256.ShapeCasts S8x56x56x256
  dot_S3328x256_S256x256_S3328x256_1_0_0_1_n_n_wf : DotDims.WF S3328x256 S256x256 S3328x256 [1] [0] [0] [1] [] []
  dot_S3328x256_S256x256_S3328x256_1_1_0_0_n_n_wf : DotDims.WF S3328x256 S256x256 S3328x256 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S3328x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3328x256.size a ≤ S8x3328x256.size a
  hwx0_0 : ∀ i : grid0.Coords, EltTy.bits .f32 = 32 ∨ (Rect.block (s := S8x3328x256) S1x3328x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3328x256.size a ≤ S8x3328x256.size a
  hwx0_2 : ∀ i : grid0.Coords, EltTy.bits .f32 = 32 ∨ (Rect.block (s := S8x3328x256) S1x3328x256.size (cc0_transform_2 i) (hinb0_2 i)).WholeWords (EltTy.packing .f32)

variable [Facts₀]

def dot_S3328x256_S256x256_S3328x256_1_0_0_1_n_n : DotDims S3328x256 S256x256 S3328x256 where
  lhsContracting := [1]
  rhsContracting := [0]
  lhsNonContracting := [0]
  rhsNonContracting := [1]
  lhsBatch := []
  rhsBatch := []
  wf := dot_S3328x256_S256x256_S3328x256_1_0_0_1_n_n_wf
def dot_S3328x256_S256x256_S3328x256_1_1_0_0_n_n : DotDims S3328x256 S256x256 S3328x256 where
  lhsContracting := [1]
  rhsContracting := [1]
  lhsNonContracting := [0]
  rhsNonContracting := [0]
  lhsBatch := []
  rhsBatch := []
  wf := dot_S3328x256_S256x256_S3328x256_1_1_0_0_n_n_wf

abbrev win0_0 : Pipeline.Window sig grid0 :=
  Pipeline.Window.ofSpec (Memref.whole main_v1) S1x3328x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3328x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x56x56x256 : Shape := ⟨4, ![8, 56, 56, 256]⟩
abbrev S256x256 : Shape := ⟨2, ![256, 256]⟩
abbrev S8x3136x256 : Shape := ⟨3, ![8, 3136, 256]⟩
abbrev S_ : Shape := ⟨0, ![]⟩
abbrev S8x3136 : Shape := ⟨2, ![8, 3136]⟩
abbrev S8x3136x1 : Shape := ⟨3, ![8, 3136, 1]⟩
abbrev S8x3136x3136 : Shape := ⟨3, ![8, 3136, 3136]⟩

abbrev nBuf : Space → Nat
  | .hbm => 24
  | .vmem => 0
  | .smem => 0
  | _ => 0

abbrev bufTy : (tb : Table) → Fin (tcTables nBuf tb) → BufTy
  | .hbm, ⟨0, _⟩ => ⟨S8x56x56x256, .f32⟩
  | .hbm, ⟨1, _⟩ => ⟨S256x256, .f32⟩
  | .hbm, ⟨2, _⟩ => ⟨S8x56x56x256, .f32⟩
  | .hbm, ⟨3, _⟩ => ⟨S8x3136x256, .f32⟩
  | .hbm, ⟨4, _⟩ => ⟨S8x3136x256, .f32⟩
  | .hbm, ⟨5, _⟩ => ⟨S8x3136x256, .f32⟩
  | .hbm, ⟨6, _⟩ => ⟨S_, .f32⟩
  | .hbm, ⟨7, _⟩ => ⟨S8x3136, .f32⟩
  | .hbm, ⟨8, _⟩ => ⟨S8x3136x1, .f32⟩
  | .hbm, ⟨9, _⟩ => ⟨S_, .f32⟩
  | .hbm, ⟨10, _⟩ => ⟨S8x3136x1, .f32⟩
  | .hbm, ⟨11, _⟩ => ⟨S8x3136x1, .f32⟩
  | .hbm, ⟨12, _⟩ => ⟨S8x3136x1, .f32⟩
  | .hbm, ⟨13, _⟩ => ⟨S8x3136x256, .f32⟩
  | .hbm, ⟨14, _⟩ => ⟨S8x3136x256, .f32⟩
  | .hbm, ⟨15, _⟩ => ⟨S8x3136x3136, .f32⟩
  | .hbm, ⟨16, _⟩ => ⟨S_, .f32⟩
  | .hbm, ⟨17, _⟩ => ⟨S8x3136x3136, .f32⟩
  | .hbm, ⟨18, _⟩ => ⟨S8x3136x3136, .f32⟩
  | .hbm, ⟨19, _⟩ => ⟨S_, .f32⟩
  | .hbm, ⟨20, _⟩ => ⟨S8x3136x3136, .f32⟩
  | .hbm, ⟨21, _⟩ => ⟨S8x3136x3136, .f32⟩
  | .hbm, ⟨22, _⟩ => ⟨S8x3136x256, .f32⟩
  | .hbm, ⟨23, _⟩ => ⟨S8x56x56x256, .f32⟩
  | _, _ => ⟨S8x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S8x56x56x256_S8x3136x256 : S8x56x56x256.ShapeCasts S8x3136x256
  reducesTo_S8x3136x256_S8x3136_d2 : S8x3136x256.ReducesTo [2] S8x3136
  h_S_ : 0 < S_.numel
  bcast_S8x3136_S8x3136x1_0_1 : S8x3136.BroadcastsInDim S8x3136x1 (![0, 1] : Fin 2 → Fin S8x3136x1.rank)
  bcast_S_S8x3136x1 : S_.BroadcastsInDim S8x3136x1 (![] : Fin 0 → Fin S8x3136x1.rank)
  bcast_S8x3136x1_S8x3136x256_0_1_2 : S8x3136x1.BroadcastsInDim S8x3136x256 (![0, 1, 2] : Fin 3 → Fin S8x3136x256.rank)
  bcast_S_S8x3136x3136 : S_.BroadcastsInDim S8x3136x3136 (![] : Fin 0 → Fin S8x3136x3136.rank)
  shapeCasts_S8x3136x256_S8x56x56x256 : S8x3136x256.ShapeCasts S8x56x56x256
  dot_S8x56x56x256_S256x256_S8x56x56x256_3_0_012_1_n_n_wf : DotDims.WF S8x56x56x256 S256x256 S8x56x56x256 [3] [0] [0, 1, 2] [1] [] []
  dot_S8x3136x256_S8x3136x256_S8x3136x3136_2_2_1_1_0_0_wf : DotDims.WF S8x3136x256 S8x3136x256 S8x3136x3136 [2] [2] [1] [1] [0] [0]
  dot_S8x3136x3136_S8x3136x256_S8x3136x256_2_1_1_2_0_0_wf : DotDims.WF S8x3136x3136 S8x3136x256 S8x3136x256 [2] [1] [1] [2] [0] [0]

variable [Facts₀]

def dot_S8x56x56x256_S256x256_S8x56x56x256_3_0_012_1_n_n : DotDims S8x56x56x256 S256x256 S8x56x56x256 where
  lhsContracting := [3]
  rhsContracting := [0]
  lhsNonContracting := [0, 1, 2]
  rhsNonContracting := [1]
  lhsBatch := []
  rhsBatch := []
  wf := dot_S8x56x56x256_S256x256_S8x56x56x256_3_0_012_1_n_n_wf
def dot_S8x3136x256_S8x3136x256_S8x3136x3136_2_2_1_1_0_0 : DotDims S8x3136x256 S8x3136x256 S8x3136x3136 where
  lhsContracting := [2]
  rhsContracting := [2]
  lhsNonContracting := [1]
  rhsNonContracting := [1]
  lhsBatch := [0]
  rhsBatch := [0]
  wf := dot_S8x3136x256_S8x3136x256_S8x3136x3136_2_2_1_1_0_0_wf
def dot_S8x3136x3136_S8x3136x256_S8x3136x256_2_1_1_2_0_0 : DotDims S8x3136x3136 S8x3136x256 S8x3136x256 where
  lhsContracting := [2]
  rhsContracting := [1]
  lhsNonContracting := [1]
  rhsNonContracting := [2]
  lhsBatch := [0]
  rhsBatch := [0]
  wf := dot_S8x3136x3136_S8x3136x256_S8x3136x256_2_1_1_2_0_0_wf

class Facts : Prop extends Facts₀ where

variable [Facts]
-- ==== Proof.Spec.lean ====
/-
  The function both programs compute, for one batch, over plain index types: `n` rows of 256 channels and a 256 × 256 weight matrix.

    xn(r, c)   = u(r, c) · rsqrt (max (Σ_k u(r, k)², ε))          the rows scaled to unit length (ε floors the squared length)
    t(q, d)    = Σ_k u(q, k) · W(k, d)                              the rows transformed
    aff(r, q)  = (max (Σ_k xn(r, k) · xn(q, k), 0))²                the clamped cosine affinity, squared
    out(r, d)  = Σ_q aff(r, q) · t(q, d)                            every row's affinity-weighted sum of transformed rows

  One program sums over the rows in thirteen blocks of 256 after padding 3136 rows to 3328 with zeros; the other sums over
  the 3136 rows at once and writes the square as a power with exponent 2. Both differences are laws of the extended reals that
  need no finiteness: a padded row scales to the zero row (0 · a = 0), so its affinity with any row is (max (0, 0))² = 0 and its
  term vanishes; regrouping a finite sum is free in a commutative monoid; and a power with exponent 2 of a number clamped at
  zero is its square, at +∞ as well.
-/
import Idealize.ShloMosaic.PureOps.Ideal
import Idealize.ShloMosaic.PureOps.Ideal.Laws
import Mathlib.Algebra.BigOperators.Fin
import Mathlib.Logic.Equiv.Fin.Basic

noncomputable section

namespace Cert.Spec

open Idealize.ShloMosaic

/-- The floor under a row's squared length: the f32 word nearest 1e-12. -/
abbrev eps : EReal := Ideal.ofBits .f32 0x2B8CBCCC#32

section Rows

variable {n : ℕ}

/-- The rows scaled to unit length. -/
def xn (u : Fin n → Fin 256 → EReal) (r : Fin n) (c : Fin 256) : EReal :=
  u r c * Ideal.rsqrt (max (∑ k : Fin 256, u r k * u r k) eps)

/-- The rows transformed by the weight matrix. -/
def tr (u : Fin n → Fin 256 → EReal) (W : Fin 256 → Fin 256 → EReal) (q : Fin n) (d : Fin 256) : EReal :=
  ∑ k : Fin 256, u q k * W k d

/-- The cosine affinity of two rows, clamped at zero and squared. -/
def aff (u : Fin n → Fin 256 → EReal) (r q : Fin n) : EReal :=
  max (∑ k : Fin 256, xn u r k * xn u q k) 0 * max (∑ k : Fin 256, xn u r k * xn u q k) 0

/-- Row `q`'s contribution to output row `r`, channel `d`. -/
def term (u : Fin n → Fin 256 → EReal) (W : Fin 256 → Fin 256 → EReal) (r : Fin n) (d : Fin 256) (q : Fin n) : EReal :=
  aff u r q * tr u W q d

/-- The output. -/
def out (u : Fin n → Fin 256 → EReal) (W : Fin 256 → Fin 256 → EReal) (r : Fin n) (d : Fin 256) : EReal :=
  ∑ q : Fin n, term u W r d q

end Rows

/-! ## The exponent 2 -/

/-- The f32 word of 2.0 denotes 2. -/
theorem ofBits_two : Ideal.ofBits .f32 0x40000000#32 = ((2 : ℝ) : EReal) := by
  simp [Ideal.ofBits, Ideal.ieee, -EReal.coe_mul]; norm_num

/-- The real power with exponent 2 is the square. -/
theorem rpow_two_eq (x : ℝ) : Real.rpow x 2 = x * x := by
  rw [show Real.rpow x 2 = x ^ (2 : ℝ) from rfl, Real.rpow_two, sq]

/-- A number clamped at zero, to the power 2, is its square: at a real by the real power, at +∞ both are +∞, and the clamp
    excludes −∞. -/
theorem pow_relu_two (s : EReal) : Ideal.pow (max s 0) (Ideal.ofBits .f32 0x40000000#32) = max s 0 * max s 0 := by
  rw [ofBits_two]
  induction s using EReal.rec with
  | bot =>
    rw [max_eq_right bot_le, ← EReal.coe_zero, Ideal.pow_coe_coe, ← EReal.coe_mul, rpow_two_eq]
  | top =>
    rw [max_eq_left le_top, Ideal.pow_top, if_pos (by exact_mod_cast (by norm_num : (0 : ℝ) < 2))]
    rfl
  | coe x =>
    rcases le_total (x : EReal) 0 with h | h
    · rw [max_eq_right h, ← EReal.coe_zero, Ideal.pow_coe_coe, ← EReal.coe_mul, rpow_two_eq]
    · rw [max_eq_left h, Ideal.pow_coe_coe, ← EReal.coe_mul, rpow_two_eq]

/-! ## Thirteen blocks of 256 rows are the 3328 rows; the last 192 are padding -/

/-- Row `qq` of key block `p`: row 256·p + qq (reduced below 3328 so that it is a row for every `p`; for `p < 13` nothing wraps). -/
def blockRow (p : ℕ) (qq : Fin 256) : Fin 3328 := ⟨(256 * p + qq.val) % 3328, Nat.mod_lt _ (by norm_num)⟩

theorem blockRow_val (p : ℕ) (hp : p < 13) (qq : Fin 256) : (blockRow p qq).val = 256 * p + qq.val := by
  have := qq.isLt
  show (256 * p + qq.val) % 3328 = _
  omega

/-- Summing block by block is summing over all rows. -/
theorem sum_blocks {M : Type*} [AddCommMonoid M] (f : Fin 3328 → M) :
    ∑ p ∈ Finset.range 13, ∑ qq : Fin 256, f (blockRow p qq) = ∑ q : Fin 3328, f q := by
  rw [Finset.sum_range (fun p => ∑ qq : Fin 256, f (blockRow p qq)), ← Fintype.sum_prod_type']
  have h : 13 * 256 = 3328 := by norm_num
  refine Fintype.sum_equiv ((finProdFinEquiv (m := 13) (n := 256)).trans (finCongr h)) _ _ fun x => congrArg f (Fin.ext ?_)
  rw [blockRow_val _ x.1.isLt]
  show 256 * x.1.val + x.2.val = x.2.val + 256 * x.1.val
  omega

/-- A sum over 3328 rows whose last 192 terms vanish is the sum over the first 3136. -/
theorem sum_pad {M : Type*} [AddCommMonoid M] (f : Fin 3328 → M) (hz : ∀ q : Fin 3328, 3136 ≤ q.val → f q = 0) :
    ∑ q : Fin 3328, f q = ∑ q : Fin 3136, f (Fin.castLE (by norm_num) q) := by
  have h : 3136 + 192 = 3328 := by norm_num
  rw [← Fintype.sum_equiv (finCongr h) (fun i => f (finCongr h i)) f (fun _ => rfl), Fin.sum_univ_add]
  rw [Finset.sum_eq_zero (s := Finset.univ) (f := fun i : Fin 192 => f (finCongr h (Fin.natAdd 3136 i)))
    (fun i _ => hz _ (by show 3136 ≤ 3136 + i.val; omega)), add_zero]
  exact Finset.sum_congr rfl fun q _ => congrArg f (Fin.ext rfl)

/-! ## Padding rows with zeros changes nothing -/

section Pad

variable (u : Fin 3136 → Fin 256 → EReal) (u' : Fin 3328 → Fin 256 → EReal) (W : Fin 256 → Fin 256 → EReal)
  (hlo : ∀ (r : Fin 3136) (c : Fin 256), u' (Fin.castLE (by norm_num) r) c = u r c)
  (hhi : ∀ r : Fin 3328, 3136 ≤ r.val → ∀ c : Fin 256, u' r c = 0)

include hlo in
theorem xn_lo (r : Fin 3136) (c : Fin 256) : xn u' (Fin.castLE (by norm_num) r) c = xn u r c := by
  unfold xn
  simp only [hlo]

include hlo in
theorem tr_lo (q : Fin 3136) (d : Fin 256) : tr u' W (Fin.castLE (by norm_num) q) d = tr u W q d := by
  unfold tr
  simp only [hlo]

include hhi in
/-- A padded row scales to the zero row. -/
theorem xn_hi (q : Fin 3328) (hq : 3136 ≤ q.val) (c : Fin 256) : xn u' q c = 0 := by
  unfold xn
  rw [hhi q hq c, zero_mul]

include hhi in
/-- A padded row contributes nothing. -/
theorem term_hi (r q : Fin 3328) (hq : 3136 ≤ q.val) (d : Fin 256) : term u' W r d q = 0 := by
  unfold term aff
  have h0 : ∑ k : Fin 256, xn u' r k * xn u' q k = 0 :=
    Finset.sum_eq_zero fun k _ => by rw [xn_hi u' hhi q hq k, mul_zero]
  rw [h0, max_self, zero_mul, zero_mul]

include hlo in
theorem term_lo (r q : Fin 3136) (d : Fin 256) :
    term u' W (Fin.castLE (by norm_num) r) d (Fin.castLE (by norm_num) q) = term u W r d q := by
  unfold term aff
  simp only [xn_lo u u' hlo, tr_lo u u' W hlo]

include hlo hhi in
/-- The thirteen blocks' sum over the padded rows is the output over the 3136 rows. -/
theorem blocks_eq_out (r : Fin 3136) (d : Fin 256) :
    ∑ p ∈ Finset.range 13, ∑ qq : Fin 256, term u' W (Fin.castLE (by norm_num) r) d (blockRow p qq) = out u W r d := by
  rw [sum_blocks (fun q => term u' W (Fin.castLE (by norm_num) r) d q),
    sum_pad _ (fun q hq => term_hi u' W hhi _ q hq d)]
  unfold out
  exact Finset.sum_congr rfl fun q _ => term_lo u u' W hlo r q d

end Pad

end Cert.Spec

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  The body's arithmetic read at an index, over the extended reals.

  Rows are indexed by `r` (3328 of them per batch, the last 192 padding), channels by `c`, `d`, `k` (256).
    • the normalised rows:  xn(r, c) = x(r, c) · rsqrt (max (Σ_k x(r, k)², ε))      — a lane sum kept as a column and broadcast back;
    • the transformed rows: t(r, d)  = Σ_k x(r, k) · W(k, d)                        — a matrix product into a zero accumulator;
    • the zero block;
    • one key block's update of the output: out(r, d) + Σ_q (max (Σ_k xn(r, k) · xn_j(q, k), 0))² · t_j(q, d), q over the block's
      256 rows — a product with the transposed key rows, a clamp at zero, a square, and a second matrix product.
  A change of float format is the identity here, so the bf16 roundings on the way into the products vanish.
-/
import proofs.«173649_j30528627539980_2_alg».proof.Proof.Gen.KernelIdeal.Skeleton
import proofs.«173649_j30528627539980_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payloads

open Cert.KernelIdeal Cert.KernelIdeal.Gen

/-- The floor under the squared norm: the f32 word nearest 1e-12, as an extended real. -/
abbrev eps : EReal := Ideal.ofBits .f32 0x2B8CBCCC#32

/-- The lane sum of a [3328, 256] array at row `r` is the sum over the row. -/
theorem rowsum_apply (w : FVec Ideal S3328x256 .f32) (hφ : FKind.Formats .f32)
    (hacc : (0x00000000#32 : BitVec 32) = FKind.add.neutral .f32 hφ) (r : Fin 3328) :
    multiReduction .add [1] S3328 w 0x00000000#32 reduces_S3328x256_S3328 hφ hacc (ix1 r) = ∑ k : Fin 256, w (ix2 r k) := by
  refine (Ideal.multiReduction_add_single w 0x00000000#32 reduces_S3328x256_S3328 hφ hacc (ix1 r)).trans ?_
  refine Finset.sum_congr rfl fun k _ => congrArg w ?_
  funext a
  match a with
  | ⟨0, _⟩ => rfl
  | ⟨1, _⟩ => rfl

/-- The plain product's dimension record, and the one with the right operand transposed. -/
abbrev dPlain : DotDims S3328x256 S256x256 S3328x256 := dot_S3328x256_S256x256_S3328x256_1_0_0_1_n_n
abbrev dTrans : DotDims S3328x256 S256x256 S3328x256 := dot_S3328x256_S256x256_S3328x256_1_1_0_0_n_n

theorem plain_l0 (i : S3328x256.Idx) (q : dPlain.contr.Idx) : (dPlain.lhsIdx i q 0).val = (i 0).val := by
  unfold DotDims.lhsIdx
  rw [dif_neg (show ¬(0 : Fin S3328x256.rank) ∈ dPlain.lhsBatch by decide),
    dif_pos (show (0 : Fin S3328x256.rank) ∈ dPlain.lhsNonContracting by decide)]
  rfl
theorem plain_l1 (i : S3328x256.Idx) (q : dPlain.contr.Idx) : (dPlain.lhsIdx i q 1).val = (q ⟨0, by decide⟩).val :=
  dPlain.lhsIdx_val_of_single rfl i q
theorem plain_r0 (i : S3328x256.Idx) (q : dPlain.contr.Idx) : (dPlain.rhsIdx i q 0).val = (q ⟨0, by decide⟩).val :=
  dPlain.rhsIdx_val_of_single rfl i q
theorem plain_r1 (i : S3328x256.Idx) (q : dPlain.contr.Idx) : (dPlain.rhsIdx i q 1).val = (i 1).val := by
  unfold DotDims.rhsIdx
  rw [dif_neg (show ¬(1 : Fin S256x256.rank) ∈ dPlain.rhsBatch by decide),
    dif_pos (show (1 : Fin S256x256.rank) ∈ dPlain.rhsNonContracting by decide)]
  rfl

theorem trans_l0 (i : S3328x256.Idx) (q : dTrans.contr.Idx) : (dTrans.lhsIdx i q 0).val = (i 0).val := by
  unfold DotDims.lhsIdx
  rw [dif_neg (show ¬(0 : Fin S3328x256.rank) ∈ dTrans.lhsBatch by decide),
    dif_pos (show (0 : Fin S3328x256.rank) ∈ dTrans.lhsNonContracting by decide)]
  rfl
theorem trans_l1 (i : S3328x256.Idx) (q : dTrans.contr.Idx) : (dTrans.lhsIdx i q 1).val = (q ⟨0, by decide⟩).val :=
  dTrans.lhsIdx_val_of_single rfl i q
theorem trans_r0 (i : S3328x256.Idx) (q : dTrans.contr.Idx) : (dTrans.rhsIdx i q 0).val = (i 1).val := by
  unfold DotDims.rhsIdx
  rw [dif_neg (show ¬(0 : Fin S256x256.rank) ∈ dTrans.rhsBatch by decide),
    dif_pos (show (0 : Fin S256x256.rank) ∈ dTrans.rhsNonContracting by decide)]
  rfl
theorem trans_r1 (i : S3328x256.Idx) (q : dTrans.contr.Idx) : (dTrans.rhsIdx i q 1).val = (q ⟨0, by decide⟩).val :=
  dTrans.rhsIdx_val_of_single rfl i q

/-- A [3328, 256] × [256, 256] product into the zero accumulator: row `r` of the left against column `d` of the right. -/
theorem mm_apply {φ₁ φ₂ : FTy} (l : FVec Ideal S3328x256 φ₁) (w : FVec Ideal S256x256 φ₂) (r : Fin 3328) (d : Fin 256) :
    matmul dPlain none l w (constant S3328x256 .f32 0x00000000#32) (ix2 r d)
      = ∑ k : Fin 256, l (ix2 r k) * w (ix2 k d) := by
  simp only [matmul]
  rw [Ideal.matmul_constant_zero_apply, ← Equiv.sum_comp (contrEquiv1 dPlain 256 rfl rfl).symm]
  refine Finset.sum_congr rfl fun k _ => ?_
  have hk := contrEquiv1_symm_val dPlain 256 rfl rfl k
  have el : dPlain.lhsIdx (ix2 r d) ((contrEquiv1 dPlain 256 rfl rfl).symm k) = ix2 r k :=
    funext fun a => Fin.ext (by
      match a with
      | ⟨0, _⟩ => exact plain_l0 _ _
      | ⟨1, _⟩ => exact (plain_l1 _ _).trans hk)
  have er : dPlain.rhsIdx (ix2 r d) ((contrEquiv1 dPlain 256 rfl rfl).symm k) = ix2 k d :=
    funext fun a => Fin.ext (by
      match a with
      | ⟨0, _⟩ => exact (plain_r0 _ _).trans hk
      | ⟨1, _⟩ => exact plain_r1 _ _)
  rw [el, er]

/-- The product with the right operand transposed: row `r` of the left against ROW `q` of the right. -/
theorem mmT_apply {φ₁ φ₂ : FTy} (l : FVec Ideal S3328x256 φ₁) (w : FVec Ideal S256x256 φ₂) (r : Fin 3328) (q : Fin 256) :
    matmul dTrans none l w (constant S3328x256 .f32 0x00000000#32) (ix2 r q)
      = ∑ k : Fin 256, l (ix2 r k) * w (ix2 q k) := by
  simp only [matmul]
  rw [Ideal.matmul_constant_zero_apply, ← Equiv.sum_comp (contrEquiv1 dTrans 256 rfl rfl).symm]
  refine Finset.sum_congr rfl fun k _ => ?_
  have hk := contrEquiv1_symm_val dTrans 256 rfl rfl k
  have el : dTrans.lhsIdx (ix2 r q) ((contrEquiv1 dTrans 256 rfl rfl).symm k) = ix2 r k :=
    funext fun a => Fin.ext (by
      match a with
      | ⟨0, _⟩ => exact trans_l0 _ _
      | ⟨1, _⟩ => exact (trans_l1 _ _).trans hk)
  have er : dTrans.rhsIdx (ix2 r q) ((contrEquiv1 dTrans 256 rfl rfl).symm k) = ix2 q k :=
    funext fun a => Fin.ext (by
      match a with
      | ⟨0, _⟩ => exact trans_r0 _ _
      | ⟨1, _⟩ => exact (trans_r1 _ _).trans hk)
  rw [el, er]

/-- The batch's block with its leading unit axis dropped. -/
theorem rows_apply (v : Vec Ideal S1x3328x256 .f32) (r : Fin 3328) (c : Fin 256) :
    k0_pay1 (F := Ideal) v (ix2 r c) = v (ix3 (0 : Fin 1) r c) := by
  unfold k0_pay1
  exact shapeCast_1ab_ab_apply v _ r c

/-- The normalised rows. -/
theorem xn_apply (v : Vec Ideal S1x3328x256 .f32) (r : Fin 3328) (c : Fin 256) :
    k0_pay2 (F := Ideal) v (ix2 r c)
      = v (ix3 (0 : Fin 1) r c)
        * Ideal.rsqrt (max (∑ k : Fin 256, v (ix3 (0 : Fin 1) r k) * v (ix3 (0 : Fin 1) r k)) eps) := by
  have e1 : ∀ k : Fin 256, (mulf (k0_pay1 (F := Ideal) v) (k0_pay1 (F := Ideal) v)) (ix2 r k)
      = v (ix3 (0 : Fin 1) r k) * v (ix3 (0 : Fin 1) r k) := fun k => by
    rw [mulf_apply, rows_apply]
  unfold k0_pay2
  try dsimp only
  rw [shapeCast_self]
  show (k0_pay1 (F := Ideal) v (ix2 r c)) * (broadcastTo S3328x256 _ broadcasts_S3328x1_S3328x256 (ix2 r c)) = _
  rw [rows_apply, broadcastTo_a1_ab_apply]
  show _ * Ideal.rsqrt (max (shapeCast S3328x1 _ shapeCasts_S3328_S3328x1 (ix2 r (0 : Fin 1))) eps) = _
  rw [shapeCast_a_a1_apply]
  refine congrArg (fun z => v (ix3 (0 : Fin 1) r c) * Ideal.rsqrt (max z eps)) ?_
  refine (rowsum_apply _ _ _ r).trans ?_
  exact Finset.sum_congr rfl fun k _ => e1 k

/-- The transformed rows. -/
theorem t_apply (v : Vec Ideal S1x3328x256 .f32) (w : Vec Ideal S256x256 .f32) (r : Fin 3328) (d : Fin 256) :
    k0_pay3 (F := Ideal) v w (ix2 r d) = ∑ k : Fin 256, v (ix3 (0 : Fin 1) r k) * w (ix2 k d) := by
  unfold k0_pay3
  try dsimp only
  rw [shapeCast_self]
  show matmul dPlain none (truncf .bf16 (k0_pay1 (F := Ideal) v) bitsLt_bf16_f32)
    (truncf .bf16 w bitsLt_bf16_f32) (constant S3328x256 .f32 0x00000000#32) (ix2 r d) = _
  rw [mm_apply]
  refine Finset.sum_congr rfl fun k _ => ?_
  show k0_pay1 (F := Ideal) v (ix2 r k) * w (ix2 k d) = _
  rw [rows_apply]

/-- The zero block. -/
theorem zero_apply (r : Fin 3328) (d : Fin 256) : k0_pay4 (F := Ideal) (ix3 (0 : Fin 1) r d) = 0 := by
  unfold k0_pay4
  try dsimp only
  rw [shapeCast_ab_1ab_apply]
  exact Ideal.ofBits_zero_f32

/-- One key block's update of the output block. -/
theorem update_apply (v3 : Vec Ideal S3328x256 .bf16) (v7 v9 : Vec Ideal S256x256 .bf16) (v14 : Vec Ideal S1x3328x256 .f32)
    (r : Fin 3328) (d : Fin 256) :
    k0_pay5 (F := Ideal) v3 v7 v9 v14 (ix3 (0 : Fin 1) r d)
      = v14 (ix3 (0 : Fin 1) r d)
        + ∑ q : Fin 256, (max (∑ k : Fin 256, v3 (ix2 r k) * v7 (ix2 q k)) 0 * max (∑ k : Fin 256, v3 (ix2 r k) * v7 (ix2 q k)) 0)
            * v9 (ix2 q d) := by
  unfold k0_pay5
  try dsimp only
  rw [shapeCast_ab_1ab_apply]
  show shapeCast S3328x256 v14 shapeCasts_S1x3328x256_S3328x256 (ix2 r d)
    + matmul (F := Ideal) dPlain none _ v9 (constant (F := Ideal) S3328x256 .f32 0x00000000#32) (ix2 r d) = _
  rw [shapeCast_1ab_ab_apply, mm_apply]
  refine congrArg (_ + ·) (Finset.sum_congr rfl fun q _ => ?_)
  show (max (matmul (F := Ideal) dTrans none v3 v7 (constant (F := Ideal) S3328x256 .f32 0x00000000#32) (ix2 r q))
      (Ideal.ofBits .f32 0x00000000#32)
    * max (matmul (F := Ideal) dTrans none v3 v7 (constant (F := Ideal) S3328x256 .f32 0x00000000#32) (ix2 r q))
      (Ideal.ofBits .f32 0x00000000#32)) * v9 (ix2 q d) = _
  rw [mmT_apply, Ideal.ofBits_zero_f32]

end Cert.KernelIdeal.Payloads

end
-- ==== Proof.Pieces.lean ====
/-
  What one run of the kernel body leaves behind, as values.

  The body keeps three buffers between grid points of one batch: the normalised rows `xn`, the transformed rows `t`
  (both [3328, 256]) and the output block [1, 3328, 256]. At the first key block of a batch it fills `xn` and `t` from the
  batch's rows and the weight matrix and zeroes the output; at every key block it adds to the output the contribution of
  the 256 rows of `xn` and `t` that start at row 256·j. Here each of these is written as the body's own arithmetic
  (the payload terms) applied to what the loads read: a whole buffer reads back as what was stored in it, and a load of 256
  rows reads the stored array at those rows.
-/
import proofs.«173649_j30528627539980_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of a [3328, 256] array that key block `i 1` reads: rows 256·j … 256·j + 255. -/
abbrev keyRows (i : grid0.Coords) (X : S3328x256.Idx → Elt F .bf16) : S256x256.Idx → Elt F .bf16 :=
  View.ld X (Rect.unit (s := S3328x256) (k0_off1 i) S256x256.size (k0_off1_inb i))

/-- First key block: the scratch for the normalised rows ends holding the normalisation of the batch's rows. -/
theorem xn_first (c : Dev nD) (i : grid0.Coords) (a2 : Memref sig .tc .vmem S1x3328x256 .f32) (h2 : a2.IsWhole)
    (a3 : Memref sig .tc .vmem S256x256 .f32) (h3 : a3.IsWhole) (a4 : Memref sig .tc .vmem S1x3328x256 .f32) (h4 : a4.IsWhole)
    (a5 : Memref sig .tc .vmem S3328x256 .bf16) (h5 : a5.IsWhole) (a6 : Memref sig .tc .vmem S3328x256 .bf16) (h6 : a6.IsWhole)
    (hc : cond0_0 i) (x0 : Vec F S1x3328x256 .f32) (x1 : Vec F S256x256 .f32) :
    sout0_A_0 c i a2 h2 a3 h3 a4 h4 a5 h5 a6 h6 hc x0 x1 = k0_pay2 x0 := by
  unfold sout0_A_0
  rw [View.read_writes_eq_canon _ _ _ (scover0_A_0 c i a2 h2 a3 h3 a4 h4 a5 h5 a6 h6 hc x0 x1)]
  unfold kernelRun0_A
  dsimp only
  sl_unfold_run_names
  rw [View.canon_unit_zero hz2]
  simp only [View.readAt_eq_ld, h2.read_unread, View.ld_unit_zero (S := S1x3328x256) hz3]

/-- First key block: the scratch for the transformed rows ends holding the batch's rows times the weight matrix. -/
theorem t_first (c : Dev nD) (i : grid0.Coords) (a2 : Memref sig .tc .vmem S1x3328x256 .f32) (h2 : a2.IsWhole)
    (a3 : Memref sig .tc .vmem S256x256 .f32) (h3 : a3.IsWhole) (a4 : Memref sig .tc .vmem S1x3328x256 .f32) (h4 : a4.IsWhole)
    (a5 : Memref sig .tc .vmem S3328x256 .bf16) (h5 : a5.IsWhole) (a6 : Memref sig .tc .vmem S3328x256 .bf16) (h6 : a6.IsWhole)
    (hc : cond0_0 i) (x0 : Vec F S1x3328x256 .f32) (x1 : Vec F S256x256 .f32) :
    sout0_A_1 c i a2 h2 a3 h3 a4 h4 a5 h5 a6 h6 hc x0 x1 = k0_pay3 x0 x1 := by
  unfold sout0_A_1
  rw [View.read_writes_eq_canon _ _ _ (scover0_A_1 c i a2 h2 a3 h3 a4 h4 a5 h5 a6 h6 hc x0 x1)]
  unfold kernelRun0_A
  dsimp only
  sl_unfold_run_names
  rw [View.canon_unit_zero hz2]
  simp only [View.readAt_eq_ld, h2.read_unread, h3.read_unread, View.ld_unit_zero (S := S1x3328x256) hz3,
    View.ld_unit_zero (S := S256x256) hz2]

/-- First key block: the output block ends at the zero block plus the first key block's contribution, computed from the
    scratch contents just stored. -/
theorem out_first (c : Dev nD) (i : grid0.Coords) (a2 : Memref sig .tc .vmem S1x3328x256 .f32) (h2 : a2.IsWhole)
    (a3 : Memref sig .tc .vmem S256x256 .f32) (h3 : a3.IsWhole) (a4 : Memref sig .tc .vmem S1x3328x256 .f32) (h4 : a4.IsWhole)
    (a5 : Memref sig .tc .vmem S3328x256 .bf16) (h5 : a5.IsWhole) (a6 : Memref sig .tc .vmem S3328x256 .bf16) (h6 : a6.IsWhole)
    (hc : cond0_0 i) (x0 : Vec F S1x3328x256 .f32) (x1 : Vec F S256x256 .f32) :
    out0_A_2 c i a2 h2 a3 h3 a4 h4 a5 h5 a6 h6 hc x0 x1
      = k0_pay5 (k0_pay2 x0) (keyRows i (k0_pay2 x0)) (keyRows i (k0_pay3 x0 x1)) (k0_pay4 (F := F)) := by
  unfold out0_A_2
  rw [View.read_writes_eq_canon _ _ _ (cover0_A_2 c i a2 h2 a3 h3 a4 h4 a5 h5 a6 h6 hc x0 x1)]
  unfold kernelRun0_A
  dsimp only
  sl_unfold_run_names
  rw [View.canon_cons_unit_zero (S := S1x3328x256) hz3]
  simp only [View.readCov_unit_zero (S := S3328x256) _ hz2, View.readCov_unit_zero (S := S1x3328x256) _ hz3,
    View.readAt_writes_junk_eq_canon, View.canon_unit_zero (S := S3328x256) hz2,
    View.readAt_eq_ld, h2.read_unread, h3.read_unread, View.ld_unit_zero (S := S1x3328x256) hz3,
    View.ld_unit_zero (S := S256x256) hz2]
  first
    | (with_reducible rfl)
    | (simp only [keyRows, View.ld]; done)
    | (unfold keyRows View.ld; with_reducible rfl)

/-- A later key block: the output block ends at what it held plus this key block's contribution, computed from the
    scratch contents the first key block of the batch left. -/
theorem out_later (c : Dev nD) (i : grid0.Coords) (a2 : Memref sig .tc .vmem S1x3328x256 .f32) (h2 : a2.IsWhole)
    (a3 : Memref sig .tc .vmem S256x256 .f32) (h3 : a3.IsWhole) (a4 : Memref sig .tc .vmem S1x3328x256 .f32) (h4 : a4.IsWhole)
    (a5 : Memref sig .tc .vmem S3328x256 .bf16) (h5 : a5.IsWhole) (a6 : Memref sig .tc .vmem S3328x256 .bf16) (h6 : a6.IsWhole)
    (hc : ¬cond0_0 i) (x0 : Vec F S1x3328x256 .f32) (x1 : Vec F S256x256 .f32) (xo2 : Vec F S1x3328x256 .f32)
    (xs0 xs1 : Vec F S3328x256 .bf16) :
    out0_B_2 c i a2 h2 a3 h3 a4 h4 a5 h5 a6 h6 hc x0 x1 xo2 xs0 xs1
      = k0_pay5 xs0 (keyRows i xs0) (keyRows i xs1) xo2 := by
  unfold out0_B_2
  rw [View.read_writes_eq_canon _ _ _ (cover0_B_2 c i a2 h2 a3 h3 a4 h4 a5 h5 a6 h6 hc x0 x1 xo2 xs0 xs1)]
  unfold kernelRun0_B
  dsimp only
  sl_unfold_run_names
  rw [View.canon_unit_zero hz3]
  simp only [View.readAt_eq_ld, h4.read_unread, h5.read_unread, h6.read_unread,
    View.ld_unit_zero (S := S3328x256) hz2, View.ld_unit_zero (S := S1x3328x256) hz3]

end Cert.KernelIdeal.Pieces

end
-- ==== Proof.Steps.lean ====
/-
  One grid point's effect on the three carried buffers, over the extended reals and over variables.

  Write `u` for the batch's 3328 rows and `W` for the weight matrix. If the block of rows the body loads reads `u` and the
  weight block reads `W`, the first key block leaves the scaled rows `xn u` and the transformed rows `t u W` in the two scratch
  buffers; and if the scratch buffers hold those, key block `j` adds to output entry (r, d) the 256 terms of rows 256·j … 256·j + 255.
-/
import proofs.«173649_j30528627539980_2_alg».proof.Proof.Spec
import proofs.«173649_j30528627539980_2_alg».proof.Proof.Payloads
import proofs.«173649_j30528627539980_2_alg».proof.Proof.Pieces

noncomputable section

open Idealize.ShloMosaic Idealize.ShloMosaic.ValueIdx

namespace Cert.KernelIdeal.Steps

open Cert.KernelIdeal Cert.KernelIdeal.Gen Cert.KernelIdeal.Payloads Cert.KernelIdeal.Pieces Cert.Spec

/-- The scaled rows, from a block that reads `u`. -/
theorem xn_of_rows (x0 : Vec Ideal S1x3328x256 .f32) (u : Fin 3328 → Fin 256 → EReal)
    (hx : ∀ (r : Fin 3328) (k : Fin 256), x0 (ix3 (0 : Fin 1) r k) = u r k) (r : Fin 3328) (k : Fin 256) :
    k0_pay2 (F := Ideal) x0 (ix2 r k) = xn u r k := by
  rw [xn_apply]
  simp only [hx]
  rfl

/-- The transformed rows, from blocks that read `u` and `W`. -/
theorem t_of_rows (x0 : Vec Ideal S1x3328x256 .f32) (x1 : Vec Ideal S256x256 .f32) (u : Fin 3328 → Fin 256 → EReal)
    (W : Fin 256 → Fin 256 → EReal) (hx : ∀ (r : Fin 3328) (k : Fin 256), x0 (ix3 (0 : Fin 1) r k) = u r k)
    (hw : ∀ k d : Fin 256, x1 (ix2 k d) = W k d) (r : Fin 3328) (d : Fin 256) :
    k0_pay3 (F := Ideal) x0 x1 (ix2 r d) = tr u W r d := by
  rw [t_apply]
  simp only [hx, hw]
  rfl

/-- Key block `j`'s update: the output entry grows by the block's 256 terms. -/
theorem update_of_scratch (xs0 xs1 : Vec Ideal S3328x256 .bf16) (xo2 : Vec Ideal S1x3328x256 .f32)
    (u : Fin 3328 → Fin 256 → EReal) (W : Fin 256 → Fin 256 → EReal) (j : ℕ) (i : grid0.Coords)
    (hi : ∀ (X : S3328x256.Idx → Elt Ideal .bf16) (qq k : Fin 256), keyRows i X (ix2 qq k) = X (ix2 (blockRow j qq) k))
    (h0 : ∀ (r : Fin 3328) (k : Fin 256), xs0 (ix2 r k) = xn u r k)
    (h1 : ∀ (r : Fin 3328) (d : Fin 256), xs1 (ix2 r d) = tr u W r d) (r : Fin 3328) (d : Fin 256) :
    k0_pay5 (F := Ideal) xs0 (keyRows i xs0) (keyRows i xs1) xo2 (ix3 (0 : Fin 1) r d)
      = xo2 (ix3 (0 : Fin 1) r d) + ∑ qq : Fin 256, term u W r d (blockRow j qq) := by
  rw [update_apply]
  refine congrArg (xo2 (ix3 (0 : Fin 1) r d) + ·) (Finset.sum_congr rfl fun qq _ => ?_)
  have es : (∑ k : Fin 256, xs0 (ix2 r k) * keyRows i xs0 (ix2 qq k))
      = ∑ k : Fin 256, xn u r k * xn u (blockRow j qq) k :=
    Finset.sum_congr rfl fun k _ => by rw [hi xs0 qq k, h0, h0]
  rw [es, hi xs1 qq d, h1]
  rfl

end Cert.KernelIdeal.Steps

end
-- ==== Proof.Blocks.lean ====
/-
  Where the body's loads land in the arrays.

  Grid point `t` is key block `t % 13` of batch `t / 13`. The row window's block at `t` is batch `t / 13` of the padded array, whole;
  the weight window's block is the weight matrix, whole; and the 256 key rows the body slices out of a scratch buffer at `t` are
  its rows 256·(t % 13) … 256·(t % 13) + 255.
-/
import proofs.«173649_j30528627539980_2_alg».proof.Proof.Spec
import proofs.«173649_j30528627539980_2_alg».proof.Proof.Pieces
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.Spec

variable (m : (ℓ : Loc nD τ sig) → Buf (Elt Ideal) ℓ)

/-- The batch of grid point `n`. -/
def batch (n : ℕ) (h : n < cfg0.N) : Fin 8 := ⟨n / 13, by have hN : cfg0.N = 104 := N_0; omega⟩

/-- The row window's and the output window's block index at a point is (batch, 0, 0); the weight window's is (0, 0). -/
theorem rows_index : ∀ t : Fin cfg0.N, win0_0.index t 0 = t.val / 13 ∧ win0_0.index t 1 = 0 ∧ win0_0.index t 2 = 0 :=
  (by decide +kernel : ∀ t : Fin grid0.N, win0_0.index t 0 = t.val / 13 ∧ win0_0.index t 1 = 0 ∧ win0_0.index t 2 = 0)
theorem weight_index : ∀ t : Fin cfg0.N, win0_1.index t 0 = 0 ∧ win0_1.index t 1 = 0 :=
  (by decide +kernel : ∀ t : Fin grid0.N, win0_1.index t 0 = 0 ∧ win0_1.index t 1 = 0)
theorem out_index : ∀ t : Fin cfg0.N, win0_2.index t 0 = t.val / 13 ∧ win0_2.index t 1 = 0 ∧ win0_2.index t 2 = 0 :=
  (by decide +kernel : ∀ t : Fin grid0.N, win0_2.index t 0 = t.val / 13 ∧ win0_2.index t 1 = 0 ∧ win0_2.index t 2 = 0)
/-- The key rows' offset at a point: row 256·(t % 13), column 0. -/
theorem key_offset : ∀ t : Fin cfg0.N, k0_off1 (grid0.coords t) 0 = 256 * (t.val % 13) ∧ k0_off1 (grid0.coords t) 1 = 0 :=
  (by decide +kernel : ∀ t : Fin grid0.N, k0_off1 (grid0.coords t) 0 = 256 * (t.val % 13) ∧ k0_off1 (grid0.coords t) 1 = 0)

/-- The row window's block at a point, at (0, r, k), is the padded array at (batch, r, k). -/
theorem rows_block_apply (c : Dev nD) (t : Fin cfg0.N) (r : Fin 3328) (k : Fin 256) :
    (iblk m c 0 t : Vec Ideal S1x3328x256 .f32) (ix3 (0 : Fin 1) r k)
      = (V m c main_v1 : S8x3328x256.Idx → EReal) (ix3 (batch t.val t.isLt) r k) := by
  have hi := rows_index t
  unfold iblk
  rw [View.read_apply]
  show V m c main_v1 _ = V m c main_v1 _
  refine congrArg (V m c main_v1) (funext fun a => Fin.ext ?_)
  match a with
  | ⟨0, _⟩ => show win0_0.index t 0 * 1 + 1 * 0 = t.val / 13; rw [hi.1]; omega
  | ⟨1, _⟩ => show win0_0.index t 1 * 3328 + 1 * r.val = r.val; rw [hi.2.1]; omega
  | ⟨2, _⟩ => show win0_0.index t 2 * 256 + 1 * k.val = k.val; rw [hi.2.2]; omega

/-- The weight window's block at a point is the weight matrix. -/
theorem weight_block_apply (c : Dev nD) (t : Fin cfg0.N) (k d : Fin 256) :
    (iblk m c 1 t : Vec Ideal S256x256 .f32) (ix2 k d) = (V m c main_arg1 : S256x256.Idx → EReal) (ix2 k d) := by
  have hi := weight_index t
  unfold iblk
  rw [View.read_apply]
  show V m c main_arg1 _ = V m c main_arg1 _
  refine congrArg (V m c main_arg1) (funext fun a => Fin.ext ?_)
  match a with
  | ⟨0, _⟩ => show win0_1.index t 0 * 256 + 1 * k.val = k.val; rw [hi.1]; omega
  | ⟨1, _⟩ => show win0_1.index t 1 * 256 + 1 * d.val = d.val; rw [hi.2]; omega

/-- The key rows at a point are the rows of key block `t % 13`. -/
theorem keyRows_apply (t : Fin cfg0.N) (X : S3328x256.Idx → Elt Ideal .bf16) (qq k : Fin 256) :
    keyRows (grid0.coords t) X (ix2 qq k) = X (ix2 (blockRow (t.val % 13) qq) k) := by
  have ho := key_offset t
  show X ((Rect.unit (s := S3328x256) (k0_off1 (grid0.coords t)) S256x256.size (k0_off1_inb (grid0.coords t))).idx (ix2 qq k)) = _
  refine congrArg X (funext fun a => Fin.ext ?_)
  match a with
  | ⟨0, _⟩ =>
    show k0_off1 (grid0.coords t) 0 + 1 * qq.val = (256 * (t.val % 13) + qq.val) % 3328
    have := qq.isLt
    rw [ho.1]; omega
  | ⟨1, _⟩ =>
    show k0_off1 (grid0.coords t) 1 + 1 * k.val = k.val
    rw [ho.2]; omega

end Cert.KernelIdeal.Blocks

end
-- ==== Proof.Accumulate.lean ====
/-
  What the three carried buffers hold after every grid point.

  Write `u` for the padded rows of the point's batch and `W` for the weight matrix, both as the region finds them. After key block
  `j` of a batch the two scratch buffers hold the scaled rows `xn u` and the transformed rows `t u W` — stored at the batch's first
  key block and untouched afterwards — and entry (r, d) of the output block holds 0 plus the terms of key blocks 0 … j. The proof is
  an induction on the point, never an enumeration of the grid: the first key block of a batch resets all three from the batch's
  rows, and every later one adds its block's 256 terms to what the point before left.
-/
import proofs.«173649_j30528627539980_2_alg».proof.Proof.Steps
import proofs.«173649_j30528627539980_2_alg».proof.Proof.Blocks

noncomputable section

open Idealize.ShloMosaic Idealize.ShloMosaic.TcCoe Idealize.SL.Sem Idealize.ShloMosaic.ValueIdx

namespace Cert.KernelIdeal.Acc

open Cert.KernelIdeal Cert.KernelIdeal.Gen Cert.KernelIdeal.Payloads Cert.KernelIdeal.Pieces Cert.KernelIdeal.Steps
  Cert.KernelIdeal.Blocks Cert.Spec

variable (m : (ℓ : Loc nD τ sig) → Buf (Elt Ideal) ℓ)

/-- Batch `b`'s padded rows, and the weight matrix, as the region finds them. -/
def urows (c : Dev nD) (b : Fin 8) : Fin 3328 → Fin 256 → EReal :=
  fun r k => (V m c main_v1 : S8x3328x256.Idx → EReal) (ix3 b r k)
def wmat (c : Dev nD) : Fin 256 → Fin 256 → EReal :=
  fun k d => (V m c main_arg1 : S256x256.Idx → EReal) (ix2 k d)

/-- The terms of key block `p` for output entry (r, d) of batch `b`. -/
def blockTerms (c : Dev nD) (b : Fin 8) (r : Fin 3328) (d : Fin 256) (p : ℕ) : EReal :=
  ∑ qq : Fin 256, term (urows m c b) (wmat m c) r d (blockRow p qq)

/-- After point `n`: the scratch buffers at the batch's scaled and transformed rows, the output block at the terms of the key
    blocks so far. -/
def Holds (c : Dev nD) (n : ℕ) (h : n < cfg0.N) : Prop :=
  (∀ (r : Fin 3328) (k : Fin 256), (outsAt0 m c n h).2.1 (ix2 r k) = xn (urows m c (batch n h)) r k)
  ∧ (∀ (r : Fin 3328) (d : Fin 256), (outsAt0 m c n h).2.2 (ix2 r d) = tr (urows m c (batch n h)) (wmat m c) r d)
  ∧ (∀ (r : Fin 3328) (d : Fin 256), (outsAt0 m c n h).1 (ix3 (0 : Fin 1) r d)
      = 0 + ∑ p ∈ Finset.range (n % 13 + 1), blockTerms m c (batch n h) r d p)

/-- The first key block of a batch. -/
theorem holds_first (c : Dev nD) (t : Fin cfg0.N) (h0 : t.val % 13 = 0) : Holds m c t.val t.isLt := by
  have hx : ∀ (r : Fin 3328) (k : Fin 256), (iblk m c 0 t : Vec Ideal S1x3328x256 .f32) (ix3 (0 : Fin 1) r k)
      = urows m c (batch t.val t.isLt) r k := fun r k => rows_block_apply m c t r k
  have hw : ∀ k d : Fin 256, (iblk m c 1 t : Vec Ideal S256x256 .f32) (ix2 k d) = wmat m c k d :=
    fun k d => weight_block_apply m c t k d
  have e0 : ∀ (r : Fin 3328) (k : Fin 256), k0_pay2 (F := Ideal) (iblk m c 0 t) (ix2 r k) = xn (urows m c (batch t.val t.isLt)) r k :=
    fun r k => xn_of_rows (iblk m c 0 t) (urows m c (batch t.val t.isLt)) hx r k
  have e1 : ∀ (r : Fin 3328) (d : Fin 256), k0_pay3 (F := Ideal) (iblk m c 0 t) (iblk m c 1 t) (ix2 r d)
      = tr (urows m c (batch t.val t.isLt)) (wmat m c) r d :=
    fun r d => t_of_rows (iblk m c 0 t) (iblk m c 1 t) (urows m c (batch t.val t.isLt)) (wmat m c) hx hw r d
  unfold Holds
  rw [outsAt0_A m c t h0]
  dsimp only
  rw [xn_first (F := Ideal) c (grid0.coords t) (ms0_0 t) (hs0_0 t) (ms0_1 t) (hs0_1 t) (ms0_2 t) (hs0_2 t) scM0_0
      (Memref.isWhole_whole _) scM0_1 (Memref.isWhole_whole _) ((hcond0_0 t).mpr h0) (iblk m c 0 t) (iblk m c 1 t),
    t_first (F := Ideal) c (grid0.coords t) (ms0_0 t) (hs0_0 t) (ms0_1 t) (hs0_1 t) (ms0_2 t) (hs0_2 t) scM0_0
      (Memref.isWhole_whole _) scM0_1 (Memref.isWhole_whole _) ((hcond0_0 t).mpr h0) (iblk m c 0 t) (iblk m c 1 t),
    out_first (F := Ideal) c (grid0.coords t) (ms0_0 t) (hs0_0 t) (ms0_1 t) (hs0_1 t) (ms0_2 t) (hs0_2 t) scM0_0
      (Memref.isWhole_whole _) scM0_1 (Memref.isWhole_whole _) ((hcond0_0 t).mpr h0) (iblk m c 0 t) (iblk m c 1 t)]
  refine ⟨e0, e1, fun r d => ?_⟩
  rw [update_of_scratch (k0_pay2 (F := Ideal) (iblk m c 0 t)) (k0_pay3 (F := Ideal) (iblk m c 0 t) (iblk m c 1 t))
      (k0_pay4 (F := Ideal)) (urows m c (batch t.val t.isLt)) (wmat m c) (t.val % 13) (grid0.coords t)
      (fun X qq k => keyRows_apply t X qq k) e0 e1 r d,
    zero_apply, h0, Finset.sum_range_one]
  rfl

/-- A later key block of a batch. -/
theorem holds_later (c : Dev nD) (t : Fin cfg0.N) (h0 : ¬t.val % 13 = 0)
    (ih : Holds m c (t.val - 1) (Nat.lt_of_le_of_lt (Nat.sub_le _ _) t.isLt)) : Holds m c t.val t.isLt := by
  have hb : batch t.val t.isLt = batch (t.val - 1) (Nat.lt_of_le_of_lt (Nat.sub_le _ _) t.isLt) :=
    Fin.ext (by show t.val / 13 = (t.val - 1) / 13; omega)
  have hj : (t.val - 1) % 13 + 1 = t.val % 13 := by omega
  obtain ⟨i0, i1, i2⟩ := ih
  unfold Holds
  rw [outsAt0_B m c t h0]
  dsimp only
  rw [out_later (F := Ideal) c (grid0.coords t) (ms0_0 t) (hs0_0 t) (ms0_1 t) (hs0_1 t) (ms0_2 t) (hs0_2 t) scM0_0
      (Memref.isWhole_whole _) scM0_1 (Memref.isWhole_whole _) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2.1
      (outsAt0 m c (t.val - 1) (Nat.lt_of_le_of_lt (Nat.sub_le _ _) t.isLt)).2.2]
  unfold sout0_B_0 sout0_B_1
  rw [hb]
  refine ⟨i0, i1, fun r d => ?_⟩
  rw [update_of_scratch (outsAt0 m c (t.val - 1) (Nat.lt_of_le_of_lt (Nat.sub_le _ _) t.isLt)).2.1
      (outsAt0 m c (t.val - 1) (Nat.lt_of_le_of_lt (Nat.sub_le _ _) t.isLt)).2.2
      (outsAt0 m c (t.val - 1) (Nat.lt_of_le_of_lt (Nat.sub_le _ _) t.isLt)).1
      (urows m c (batch (t.val - 1) (Nat.lt_of_le_of_lt (Nat.sub_le _ _) t.isLt))) (wmat m c) (t.val % 13) (grid0.coords t)
      (fun X qq k => keyRows_apply t X qq k) i0 i1 r d,
    i2 r d, ← hj, Finset.sum_range_succ _ ((t.val - 1) % 13 + 1), add_assoc, hj]
  rfl

/-- Every point. -/
theorem holds : ∀ (c : Dev nD) (n : ℕ) (h : n < cfg0.N), Holds m c n h
  | c, 0, h => holds_first m c ⟨0, h⟩ (Nat.zero_mod 13)
  | c, n + 1, h => by
    by_cases h0 : (n + 1) % 13 = 0
    · exact holds_first m c ⟨n + 1, h⟩ h0
    · exact holds_later m c ⟨n + 1, h⟩ h0 (holds c n (Nat.lt_of_succ_lt h))

/-- At the last key block of a batch the output block holds all thirteen blocks' terms. -/
theorem out_last (c : Dev nD) (t : Fin cfg0.N) (h12 : t.val % 13 = 12) (r : Fin 3328) (d : Fin 256) :
    (outsAt0 m c t.val t.isLt).1 (ix3 (0 : Fin 1) r d)
      = 0 + ∑ p ∈ Finset.range 13, blockTerms m c (batch t.val t.isLt) r d p := by
  rw [(holds m c t.val t.isLt).2.2 r d, h12]

end Cert.KernelIdeal.Acc

end
-- ==== Proof.HostPrefix.lean ====
/-
  The arrays as the region finds them.

  Before the region the host reshapes the argument [8, 56, 56, 256] to [8, 3136, 256] and pads each batch's 3136 rows with 192 rows
  of the value it converts from the integer 0. So the padded array is the reshaped argument on rows below 3136 and exactly 0 on
  the padding rows (an integer converts to itself at the ideal values), and the weight matrix is the second argument untouched.
-/
import proofs.«173649_j30528627539980_2_alg».proof.Proof.Gen.KernelIdeal.Frame
import Idealize.ShloMosaic.Lib.KernelVsHost
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.HostPrefix

open Cert.KernelIdeal Cert.KernelIdeal.Gen

variable (m : (ℓ : Loc nD τ sig) → Buf (Elt Ideal) ℓ)

/-- The argument viewed as 3136 rows per batch. -/
def reshaped (c : Dev nD) : S8x3136x256.Idx → EReal :=
  shapeCast S8x3136x256 (m ((c : Thread nD τ).loc main_arg0)) shapeCasts_S8x56x56x256_S8x3136x256

/-- The padding value: the integer 0 converted to f32. -/
def padValue : S_.Idx → EReal := sitofp (F := Ideal) .f32 (constantI S_ 32 0#32)

/-- The padded array the region finds is the host's pad of the reshaped argument. -/
theorem padded_eq (c : Dev nD) :
    (V m c main_v1 : S8x3328x256.Idx → EReal)
      = pad S8x3328x256 ![0, 0, 0] ![0, 192, 0] ![0, 0, 0] (reshaped m c) padValue
          pads_S8x3136x256_S8x3328x256_000_01920_000 h_S_ := by
  dsimp only [V, V0]
  simp only [hostOps0, hostOps0_1, List.flatten_cons, List.flatten_nil, List.append_nil, List.cons_append, List.nil_append]
  after_results
  rfl

/-- Below row 3136 the padded array is the reshaped argument. -/
theorem padded_lo (c : Dev nD) (b : Fin 8) (r : Fin 3136) (k : Fin 256) :
    (V m c main_v1 : S8x3328x256.Idx → EReal) (ix3 b (Fin.castLE (by norm_num) r : Fin 3328) k) = reshaped m c (ix3 b r k) := by
  rw [padded_eq]
  refine pad_apply_of_inside _ _ _ _ _ _ _ _ (ix3 b r k) fun a => ?_
  match a with
  | ⟨0, _⟩ => show b.val = 0 + b.val * (0 + 1); omega
  | ⟨1, _⟩ => show r.val = 0 + r.val * (0 + 1); omega
  | ⟨2, _⟩ => show k.val = 0 + k.val * (0 + 1); omega

/-- From row 3136 on it is 0. -/
theorem padded_hi (c : Dev nD) (b : Fin 8) (r : Fin 3328) (hr : 3136 ≤ r.val) (k : Fin 256) :
    (V m c main_v1 : S8x3328x256.Idx → EReal) (ix3 b r k) = (0 : EReal) := by
  rw [padded_eq]
  refine (pad_apply_of_not_inside _ _ _ _ _ _ _ (ix3 b r k) (1 : Fin 3) ?_).trans ?_
  · show ¬(0 ≤ r.val ∧ (r.val - 0) % (0 + 1) = 0 ∧ (r.val - 0) / (0 + 1) < 3136)
    omega
  · show ((((0#32 : BitVec 32).toInt : ℝ)) : EReal) = (0 : EReal)
    simp

/-- The weight matrix the region finds is the second argument. -/
theorem weight_eq (c : Dev nD) : V m c main_arg1 = m ((c : Thread nD τ).loc main_arg1) := V_main_arg1 m c

end Cert.KernelIdeal.HostPrefix

end
-- ==== Proof.Target.lean ====
/-
  The result both programs are shown to produce, as one function of the two arguments.

  The argument [8, 56, 56, 256] is read as 8 batches of 3136 rows of 256 channels; every batch's output rows are the affinity-weighted
  sums of its transformed rows (the module on the per-batch function); and the [8, 3136, 256] result is read back as [8, 56, 56, 256].
-/
import proofs.«173649_j30528627539980_2_alg».proof.Proof.Spec
import Idealize.ShloMosaic.Lib.ValueIdx

noncomputable section

namespace Cert.Target

open Idealize.ShloMosaic Idealize.ShloMosaic.ValueIdx Cert.Spec

abbrev S4 : Shape := ⟨4, ![8, 56, 56, 256]⟩
abbrev S3 : Shape := ⟨3, ![8, 3136, 256]⟩
abbrev S2 : Shape := ⟨2, ![256, 256]⟩

theorem h43 : S4.ShapeCasts S3 := by decide
theorem h34 : S3.ShapeCasts S4 := by decide

/-- Batch `b`'s rows. -/
def rows (x : S4.Idx → EReal) (b : Fin 8) : Fin 3136 → Fin 256 → EReal := fun r k => shapeCast S3 x h43 (ix3 b r k)

/-- The weight matrix by coordinates. -/
def weights (W : S2.Idx → EReal) : Fin 256 → Fin 256 → EReal := fun k d => W (ix2 k d)

/-- The result as 3136 rows per batch. -/
def flat (x : S4.Idx → EReal) (W : S2.Idx → EReal) : S3.Idx → EReal :=
  fun i => out (rows x ⟨(i 0).val, (i 0).isLt⟩) (weights W) ⟨(i 1).val, (i 1).isLt⟩ ⟨(i 2).val, (i 2).isLt⟩

/-- The result. -/
def result (x : S4.Idx → EReal) (W : S2.Idx → EReal) : S4.Idx → EReal := shapeCast S4 (flat x W) h34

theorem flat_apply (x : S4.Idx → EReal) (W : S2.Idx → EReal) (b : Fin 8) (r : Fin 3136) (d : Fin 256) :
    flat x W (ix3 b r d) = out (rows x b) (weights W) r d := rfl

end Cert.Target

end
-- ==== Proof.KernelValue.lean ====
/-
  The kernel's result array.

  The output window's block for batch `b` is written back once, after the batch's last key block, when entry (r, d) holds 0 plus the
  terms of all thirteen key blocks; the eight blocks tile the [8, 3328, 256] array, so the array ends holding that sum at every
  index. The host then keeps rows 0 … 3135 of every batch and reads the result back as [8, 56, 56, 256]. On a kept row the sum over
  thirteen blocks of padded rows is the per-batch target function of the batch's 3136 rows: the padded array is the reshaped argument
  there and zero on the padding rows.
-/
import proofs.«173649_j30528627539980_2_alg».proof.Proof.Accumulate
import proofs.«173649_j30528627539980_2_alg».proof.Proof.HostPrefix
import proofs.«173649_j30528627539980_2_alg».proof.Proof.Target
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Acc Cert.KernelIdeal.HostPrefix Cert.Spec

variable (m : (ℓ : Loc nD τ sig) → Buf (Elt Ideal) ℓ) (ρ : Dev nD → PrngReg)

/-- The output array after the run: at (b, r, d), zero plus the terms of batch `b`'s thirteen key blocks. -/
def finalArr (c : Dev nD) : S8x3328x256.Idx → EReal := fun i =>
  0 + ∑ p ∈ Finset.range 13, blockTerms m c ⟨(i 0).val, (i 0).isLt⟩ ⟨(i 1).val, (i 1).isLt⟩ ⟨(i 2).val, (i 2).isLt⟩ p

theorem finalArr_apply (c : Dev nD) (b : Fin 8) (r : Fin 3328) (d : Fin 256) :
    finalArr m c (ix3 b r d) = 0 + ∑ p ∈ Finset.range 13, blockTerms m c b r d p := rfl

/-- What a batch's last key block writes back is the batch's block of that array. -/
theorem flushed_eq (c : Dev nD) (t : Fin cfg0.N) (hf : (cfg0.win 2).flush t = true) :
    (dats m 0 c).flushed 2 t = ((cfg0.win 2).blk t).view.read (Elt Ideal) (finalArr m c) := by
  have h12 : t.val % 13 = 12 := (flush0_2 t).mp hf
  have hi := out_index t
  show (cfg0.win 2).cut (grid0.coords t) ((dats m 0 c).after 2 t) = _
  rw [after0_2]
  funext y
  obtain ⟨u, r, d, rfl⟩ : ∃ (u : Fin 1) (r : Fin 3328) (d : Fin 256), y = ix3 u r d := ⟨y 0, y 1, y 2, eq_ix3 y⟩
  obtain rfl : u = 0 := Subsingleton.elim _ _
  rw [View.read_apply]
  show (outsAt0 m c t.val t.isLt).1 (ix3 (0 : Fin 1) r d) = finalArr m c (((cfg0.win 2).blk t).view.emb (ix3 (0 : Fin 1) r d))
  have he : ((cfg0.win 2).blk t).view.emb (ix3 (0 : Fin 1) r d) = ix3 (batch t.val t.isLt) r d := funext fun a => Fin.ext (by
    match a with
    | ⟨0, _⟩ => show win0_2.index t 0 * 1 + 1 * 0 = t.val / 13; rw [hi.1]; omega
    | ⟨1, _⟩ => show win0_2.index t 1 * 3328 + 1 * r.val = r.val; rw [hi.2.1]; omega
    | ⟨2, _⟩ => show win0_2.index t 2 * 256 + 1 * d.val = d.val; rw [hi.2.2]; omega)
  rw [he, out_last m c t h12 r d]
  rfl

/-- An index of the array lies in point `t`'s block iff every coordinate lies in the block's range on its axis. -/
theorem mem_blk (t : Fin cfg0.N) (i : S8x3328x256.Idx) :
    i ∈ ((cfg0.win 2).blk t).view.set ↔ ∀ a : Fin 3, win0_2.index t a * S1x3328x256.size a ≤ (i a).val
      ∧ (i a).val < win0_2.index t a * S1x3328x256.size a + S1x3328x256.size a := by
  show i ∈ ((View.whole main_v2).slice (win0_2.rect t)).set ↔ _
  rw [View.set_slice_whole, Rect.mem_set_unit]
  exact Iff.rfl

/-- Every index of the array is in the block some batch's last key block writes back. -/
theorem covered (i : S8x3328x256.Idx) :
    ∃ t : Fin cfg0.N, (cfg0.win 2).flush t = true ∧ i ∈ ((cfg0.win 2).blk t).view.set := by
  have h0 : (i 0).val < 8 := (i 0).isLt
  have h1 : (i 1).val < 3328 := (i 1).isLt
  have h2 : (i 2).val < 256 := (i 2).isLt
  have hN : cfg0.N = 104 := N_0
  let t : Fin cfg0.N := ⟨13 * (i 0).val + 12, by omega⟩
  have hi := out_index t
  have ht : t.val / 13 = (i 0).val := by show (13 * (i 0).val + 12) / 13 = (i 0).val; omega
  refine ⟨t, (flush0_2 t).mpr (by show (13 * (i 0).val + 12) % 13 = 12; omega), ?_⟩
  rw [mem_blk]
  intro a
  match a with
  | ⟨0, _⟩ =>
    show win0_2.index t 0 * 1 ≤ (i 0).val ∧ (i 0).val < win0_2.index t 0 * 1 + 1
    rw [hi.1, ht]; omega
  | ⟨1, _⟩ =>
    show win0_2.index t 1 * 3328 ≤ (i 1).val ∧ (i 1).val < win0_2.index t 1 * 3328 + 3328
    rw [hi.2.1]; omega
  | ⟨2, _⟩ =>
    show win0_2.index t 2 * 256 ≤ (i 2).val ∧ (i 2).val < win0_2.index t 2 * 256 + 256
    rw [hi.2.2]; omega

/-- So the output array ends holding the thirteen blocks' sums everywhere. -/
theorem final (c : Dev nD) : (dats m 0 c).arrAt 2 cfg0.N = finalArr m c :=
  (dats m 0 c).arrAt_eq_of_cover 2 (finalArr m c) (fun t hf => flushed_eq m c t hf) (covered)

/-- The kept rows of the output array are the target function's rows. -/
theorem kept_eq (c : Dev nD) :
    extractStridedSlice S8x3136x256 ![0, 0, 0] (finalArr m c) slices_S8x3328x256_S8x3136x256_0_0_0
      = Cert.Target.flat (m ((c : Thread nD τ).loc main_arg0)) (m ((c : Thread nD τ).loc main_arg1)) := by
  funext i
  obtain ⟨b, r, d, rfl⟩ : ∃ (b : Fin 8) (r : Fin 3136) (d : Fin 256), i = ix3 b r d := ⟨i 0, i 1, i 2, eq_ix3 i⟩
  rw [Cert.Target.flat_apply]
  refine (extractStridedSlice_apply _ _ _ (ix3 b r d) (ix3 b (Fin.castLE (by norm_num) r : Fin 3328) d) (fun a => by
    match a with
    | ⟨0, _⟩ => show b.val = 0 + b.val; omega
    | ⟨1, _⟩ => show r.val = 0 + r.val; omega
    | ⟨2, _⟩ => show d.val = 0 + d.val; omega)).trans ?_
  rw [finalArr_apply, zero_add]
  have hW : wmat m c = Cert.Target.weights (m ((c : Thread nD τ).loc main_arg1)) :=
    funext fun k => funext fun d' => congrFun (weight_eq m c) (ix2 k d')
  unfold blockTerms
  rw [hW]
  exact blocks_eq_out (Cert.Target.rows (m ((c : Thread nD τ).loc main_arg0)) b) (urows m c b)
    (Cert.Target.weights (m ((c : Thread nD τ).loc main_arg1)))
    (fun r' k => padded_lo m c b r' k) (fun r' hr k => padded_hi m c b r' hr k) r d

/-- The result buffer after the host's slice and reshape. -/
theorem tail_eq (c : Dev nD) :
    Pipeline.afterTail₀ cfgs (dats m) 0 (V0 m) [hostOps1] c main_v4
      = Cert.Target.result (m ((c : Thread nD τ).loc main_arg0)) (m ((c : Thread nD τ).loc main_arg1)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2)
      = finalArr m c :=
    (Pipeline.withArrays_arr spec0 launch0.win.arr_inj c _ _ 2).trans (final m c)
  rw [hw, kept_eq]
  rfl

/-- The kernel's run, read: every weakly fair execution ends with the result buffer at the target function of the arguments, and
    the arguments unchanged. -/
theorem run : θ_run defs (onTc (τ := τ) (main (F := Ideal))) ⟨m, fun _ => 0, ρ⟩ fun r => ∀ c : Dev nD,
      r.2.mem ((c.tc : Thread nD τ).loc main_v4)
        = Cert.Target.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefValue.lean ====
/-
  The reference computes the target function.

  Its stages are read at an index one at a time: the reshaped argument is the batch's rows; the row sum of squares, floored by ε and
  passed through rsqrt, scales each row; the batched product of the scaled rows with themselves is the cosine affinity, which the
  reference clamps at zero and raises to the power 2 — the square, at every extended real; the transformed rows are the 4-d argument
  times the weight matrix, reshaped, which at (b, q, d) is the same sum over channels as the reshaped rows times the weights; and
  the last batched product sums the affinities against the transformed rows over the batch's 3136 rows.
-/
import proofs.«173649_j30528627539980_2_alg».proof.Proof.Gen.ReferenceIdeal.Read
import proofs.«173649_j30528627539980_2_alg».proof.Proof.Target

noncomputable section

open Idealize.ShloMosaic Idealize.ShloMosaic.ValueIdx

namespace Cert.ReferenceIdeal.RefValue

open Cert.ReferenceIdeal Cert.ReferenceIdeal.Read Cert.Spec Cert.Target

variable (x : (⟨S8x56x56x256, .f32⟩ : BufTy).Contents (Elt Ideal)) (W : (⟨S256x256, .f32⟩ : BufTy).Contents (Elt Ideal))

/-- The reshaped argument is the batch's rows. -/
theorem rows_apply (b : Fin 8) (r : Fin 3136) (k : Fin 256) : val_main_v2 (F := Ideal) x (ix3 b r k) = rows x b r k := rfl

/-- A row's sum of squares. -/
theorem sumsq_apply (b : Fin 8) (r : Fin 3136) :
    val_main_v4 (F := Ideal) x (ix2 b r) = ∑ k : Fin 256, rows x b r k * rows x b r k := by
  rw [val_main_v4_apply]
  show Ideal.ofBits .f32 0x00000000#32 + _ = _
  rw [Ideal.ofBits_zero_f32, zero_add]
  refine Finset.sum_congr rfl fun k _ => ?_
  have e : idx_main_v4 (ix2 b r) k = ix3 b r k := funext fun a => Fin.ext (by
    match a with
    | ⟨0, _⟩ => rfl
    | ⟨1, _⟩ => rfl
    | ⟨2, _⟩ => rfl)
  rw [e]
  rfl

/-- The scaled rows. -/
theorem xn_apply (b : Fin 8) (r : Fin 3136) (k : Fin 256) :
    val_main_v10 (F := Ideal) x (ix3 b r k) = xn (rows x b) r k := by
  have e9 : idx_main_v9 (ix3 b r k) = ix3 b r (0 : Fin 1) := funext fun a => Fin.ext (by
    match a with
    | ⟨0, _⟩ => rfl
    | ⟨1, _⟩ => rfl
    | ⟨2, _⟩ => rfl)
  have e5 : idx_main_v5 (ix3 b r (0 : Fin 1)) = ix2 b r := funext fun a => Fin.ext (by
    match a with
    | ⟨0, _⟩ => rfl
    | ⟨1, _⟩ => rfl)
  rw [val_main_v10_apply, val_main_v9_apply, e9, val_main_v8_apply, val_main_v7_apply, val_main_v5_apply, e5, sumsq_apply,
    val_main_v6_apply]
  rfl

/-- The cosine affinity before the clamp. -/
theorem sim_apply (b : Fin 8) (r q : Fin 3136) :
    val_main_v11 (F := Ideal) x (ix3 b r q) = ∑ k : Fin 256, xn (rows x b) r k * xn (rows x b) q k := by
  rw [val_main_v11_apply]
  refine Finset.sum_congr rfl fun k _ => ?_
  have el : lidx_main_v11 (ix3 b r q) k = ix3 b r k := funext fun a => Fin.ext (by
    match a with
    | ⟨0, _⟩ => rfl
    | ⟨1, _⟩ => rfl
    | ⟨2, _⟩ => rfl)
  have er : ridx_main_v11 (ix3 b r q) k = ix3 b q k := funext fun a => Fin.ext (by
    match a with
    | ⟨0, _⟩ => rfl
    | ⟨1, _⟩ => rfl
    | ⟨2, _⟩ => rfl)
  rw [el, er, xn_apply, xn_apply]

/-- Clamped at zero and raised to the power 2: the squared clamped affinity. -/
theorem aff_apply (b : Fin 8) (r q : Fin 3136) :
    val_main_v14 (F := Ideal) x (ix3 b r q) = aff (rows x b) r q := by
  rw [val_main_v14_apply, val_main_v12_apply, sim_apply, val_main_call0_v0_apply, val_main_v13_apply]
  show Ideal.pow (max _ (Ideal.ofBits .f32 0x00000000#32)) (Ideal.ofBits .f32 0x40000000#32) = _
  rw [Ideal.ofBits_zero_f32, pow_relu_two]
  rfl

/-- The transformed rows: the 4-d product reshaped is the reshaped rows times the weights. -/
theorem t_apply (b : Fin 8) (q : Fin 3136) (d : Fin 256) :
    val_main_v1 (F := Ideal) x W (ix3 b q d) = tr (rows x b) (weights W) q d := by
  rw [val_main_v1_apply, val_main_v0_apply]
  refine Finset.sum_congr rfl fun k _ => ?_
  have hb := b.isLt
  have hq := q.isLt
  have hd := d.isLt
  have hk := k.isLt
  have el : lidx_main_v0 (idx_main_v1 (ix3 b q d)) k = idx_main_v2 (ix3 b q k) := funext fun a => Fin.ext (by
    match a with
    | ⟨0, _⟩ =>
      show ((b.val * 3136 + q.val) * 256 + d.val) / 802816 = ((b.val * 3136 + q.val) * 256 + k.val) / 802816
      omega
    | ⟨1, _⟩ =>
      show ((b.val * 3136 + q.val) * 256 + d.val) / 14336 % 56 = ((b.val * 3136 + q.val) * 256 + k.val) / 14336 % 56
      omega
    | ⟨2, _⟩ =>
      show ((b.val * 3136 + q.val) * 256 + d.val) / 256 % 56 = ((b.val * 3136 + q.val) * 256 + k.val) / 256 % 56
      omega
    | ⟨3, _⟩ =>
      show k.val = ((b.val * 3136 + q.val) * 256 + k.val) % 256
      omega)
  have er : ridx_main_v0 (idx_main_v1 (ix3 b q d)) k = ix2 k d := funext fun a => Fin.ext (by
    match a with
    | ⟨0, _⟩ => rfl
    | ⟨1, _⟩ =>
      show ((b.val * 3136 + q.val) * 256 + d.val) % 256 = d.val
      omega)
  rw [el, er, ← val_main_v2_apply (F := Ideal) x (ix3 b q k)]
  rfl

/-- The result before the last reshape. -/
theorem flat_eq : val_main_v15 (F := Ideal) x W = flat x W := by
  funext i
  obtain ⟨b, r, d, rfl⟩ : ∃ (b : Fin 8) (r : Fin 3136) (d : Fin 256), i = ix3 b r d := ⟨i 0, i 1, i 2, eq_ix3 i⟩
  rw [val_main_v15_apply, flat_apply]
  unfold out
  refine Finset.sum_congr rfl fun q _ => ?_
  have el : lidx_main_v15 (ix3 b r d) q = ix3 b r q := funext fun a => Fin.ext (by
    match a with
    | ⟨0, _⟩ => rfl
    | ⟨1, _⟩ => rfl
    | ⟨2, _⟩ => rfl)
  have er : ridx_main_v15 (ix3 b r d) q = ix3 b q d := funext fun a => Fin.ext (by
    match a with
    | ⟨0, _⟩ => rfl
    | ⟨1, _⟩ => rfl
    | ⟨2, _⟩ => rfl)
  rw [el, er, aff_apply, t_apply]
  rfl

/-- The reference's result is the target function of the arguments. -/
theorem result_eq : val_main_v16 (F := Ideal) x W = result x W := by
  unfold val_main_v16 result
  rw [flat_eq]

end Cert.ReferenceIdeal.RefValue

end
-- ==== Proof.lean ====
/- The proof of `Cert.Claim` for the cosine-affinity aggregation kernel against its jnp reference.

   Per batch, with `u` the batch's 3136 rows of 256 channels and `W` the 256 × 256 weight matrix, both programs compute
     out(r, d) = Σ_q (max (Σ_k xn(r, k) · xn(q, k), 0))² · Σ_k u(q, k) · W(k, d),   xn(r, k) = u(r, k) · rsqrt (max (Σ_k u(r, k)², ε)).
   The kernel pads the rows to 3328, keeps the scaled and the transformed rows in two scratch buffers filled at a batch's first key
   block, and accumulates the output block over thirteen key blocks of 256 rows; the reference takes the sums whole and writes the
   square as a power with exponent 2. Over the extended reals the two agree without any finiteness: padded rows scale to zero rows
   and contribute zero terms, a finite sum may be regrouped, and a number clamped at zero to the power 2 is its square.

   Modules: Spec (the per-batch function and the three laws), Target (the whole result as a function of the arguments), Payloads
   (the body's arithmetic at an index), Pieces (what one run of the body leaves), Steps and Blocks (one point's effect; where its
   loads land), Accumulate (the carried buffers after every point, by induction on the point), HostPrefix (the padded array),
   KernelValue (the output array by its blocks, the host's slice and reshape, the kernel's run), RefValue (the reference's stages
   read down to the same function). The frames of the two kernel programs and the reference's run are the generated modules'. -/
import proofs.«173649_j30528627539980_2_alg».proof.Defs
import proofs.«173649_j30528627539980_2_alg».proof.Proof.Gen.Kernel
import proofs.«173649_j30528627539980_2_alg».proof.Proof.Gen.Kernel.Frame
import proofs.«173649_j30528627539980_2_alg».proof.Proof.Gen.KernelIdeal
import proofs.«173649_j30528627539980_2_alg».proof.Proof.Gen.KernelIdeal.Frame
import proofs.«173649_j30528627539980_2_alg».proof.Proof.Gen.ReferenceIdeal
import proofs.«173649_j30528627539980_2_alg».proof.Proof.Gen.ReferenceIdeal.Run
import proofs.«173649_j30528627539980_2_alg».proof.Proof.Gen.ReferenceIdeal.Read
import proofs.«173649_j30528627539980_2_alg».proof.Proof.Gen.Pre_finite_inputs
import proofs.«173649_j30528627539980_2_alg».proof.Proof.KernelValue
import proofs.«173649_j30528627539980_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result at the target function of arguments that agree. -/
theorem algebraic : Cert.algebraic_KernelIdeal_ReferenceIdeal := by
  intro m ρ m' ρ' _ hagree
  refine ⟨fun c => Cert.Target.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
